-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024 : Shape := ⟨2, ![32, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) (main_arg1 : IVec S32x1024 32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  main_v3
-- ==== Kernel.lean ====
abbrev S32x1024x1024 : Shape := ⟨3, ![32, 1024, 1024]⟩
abbrev S32x1024 : Shape := ⟨2, ![32, 1024]⟩
abbrev S32x1x1024 : Shape := ⟨3, ![32, 1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 4
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .i32⟩
  | .hbm, ⟨2, _⟩ => ⟨S32x1x1024, .i32⟩
  | .hbm, ⟨3, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .i32⟩
  | .local _ .vmem, ⟨3, _⟩ => ⟨S1x1x1024, .i32⟩
  | .local _ .vmem, ⟨4, _⟩ => ⟨S1x1024x1024, .f32⟩
  | .local _ .vmem, ⟨5, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S32x1024_S32x1x1024_0_2 : S32x1024.BroadcastsInDim S32x1x1024 (![0, 2] : Fin 2 → Fin S32x1x1024.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  transposes_S1024x1024_p1_0_S1024x1024 : S1024x1024.Transposes [1, 0] S1024x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S1024x1024_S1024 : S1024x1024.Reduces [1] S1024
  shapeCasts_S1024_S1024x1 : S1024.ShapeCasts S1024x1
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .i32 = 32 ∨ (Rect.block (s := S32x1x1024) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x1024 : Shape := ⟨2, ![32, 1024]⟩
abbrev S1024x1024 : Shape := ⟨2, ![1024, 1024]⟩
abbrev S_ : Shape := ⟨0, ![]⟩
abbrev S1x1024x1024 : Shape := ⟨3, ![1, 1024, 1024]⟩
abbrev S32x1x1024 : Shape := ⟨3, ![32, 1, 1024]⟩
abbrev S32x1024x1 : Shape := ⟨3, ![32, 1024, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .i32⟩
  | .hbm, ⟨2, _⟩ => ⟨S32x1024x1024, .f32⟩
  | .hbm, ⟨3, _⟩ => ⟨S1024x1024, .i32⟩
  | .hbm, ⟨4, _⟩ => ⟨S1024x1024, .i32⟩
  | .hbm, ⟨5, _⟩ => ⟨S_, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1x1024x1024, .f32⟩
  | .hbm, ⟨14, _⟩ => ⟨S32x1024x1024, .f32⟩
  | .hbm, ⟨15, _⟩ => ⟨S32x1024x1024, .f32⟩
  | .hbm, ⟨16, _⟩ => ⟨S32x1x1024, .i32⟩
  | .hbm, ⟨17, _⟩ => ⟨S32x1x1024, .f32⟩
  | .hbm, ⟨18, _⟩ => ⟨S32x1024x1024, .f32⟩
  | .hbm, ⟨19, _⟩ => ⟨S32x1024x1024, .f32⟩
  | .hbm, ⟨20, _⟩ => ⟨S_, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024x1, .f32⟩
  | .hbm, ⟨26, _⟩ => ⟨S32x1024x1024, .f32⟩
  | .hbm, ⟨27, _⟩ => ⟨S32x1024x1024, .f32⟩
  | .hbm, ⟨28, _⟩ => ⟨S32x1024x1024, .f32⟩
  | .hbm, ⟨29, _⟩ => ⟨S_, .f32⟩
  | .hbm, ⟨30, _⟩ => ⟨S32x1024, .f32⟩
  | .hbm, ⟨31, _⟩ => ⟨S32x1024x1, .f32⟩
  | .hbm, ⟨32, _⟩ => ⟨S32x1024x1024, .f32⟩
  | .hbm, ⟨33, _⟩ => ⟨S32x1024x1024, .f32⟩
  | .hbm, ⟨34, _⟩ => ⟨S32x1024x1024, .f32⟩
  | .hbm, ⟨35, _⟩ => ⟨S32x1024x1024, .f32⟩
  | .hbm, ⟨36, _⟩ => ⟨S_, .f32⟩
  | .hbm, ⟨37, _⟩ => ⟨S32x1024, .f32⟩
  | .hbm, ⟨38, _⟩ => ⟨S32x1024x1, .f32⟩
  | .hbm, ⟨39, _⟩ => ⟨S_, .f32⟩
  | .hbm, ⟨40, _⟩ => ⟨S32x1024x1, .f32⟩
  | .hbm, ⟨41, _⟩ => ⟨S32x1024x1, .f32⟩
  | .hbm, ⟨42, _⟩ => ⟨S32x1024x1024, .f32⟩
  | .hbm, ⟨43, _⟩ => ⟨S32x1024x1024, .f32⟩
  | .hbm, ⟨44, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S_S32x1024x1 : S_.BroadcastsInDim S32x1024x1 (![] : Fin 0 → Fin S32x1024x1.rank)
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]

variable [Facts₀]

def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf

class Facts : Prop extends Facts₀ where

variable [Facts]
-- ==== Proof.Softmax.lean ====
/-
  The algebra of one row of a masked softmax attention, on the extended reals.

  For a row of scores `s` and mask weights `w` over a finite index set, with `M` the row's largest
  score (the running maximum from -∞) and `e k = exp (s k - M)`:

    * the single-division weight     `e k · w k / (∑ e·w + ε · ∑ e)`,
    * the two-step weight            `(e k / ∑ e) · w k / (∑ (e / ∑ e) · w + ε)`.

  When every score, every weight and `ε` is a real number the two agree: `∑ e` is a positive real
  (each `e k` is an exponential of a real), so dividing numerator and denominator of the second by
  `∑ e` gives the first. This holds also where the common denominator vanishes, since a quotient by
  zero is decided by the sign of its numerator, and `a` and `a / ∑ e` have the same sign.
-/
import Idealize.ShloMosaic.PureOps.Ideal

noncomputable section

namespace Cert.Attn

open Idealize.ShloMosaic

/-! ## The float constants of the two programs -/

/-- The pattern of `1.0` denotes `1`. -/
theorem ofBits_one : Ideal.ofBits .f32 0x3F800000#32 = 1 := by
  simp [Ideal.ofBits, Ideal.ieee, -EReal.coe_mul]; norm_num

/-- The pattern of `-∞` denotes the bottom of the extended reals. -/
theorem ofBits_neg_inf : Ideal.ofBits .f32 0xFF800000#32 = ⊥ := by
  simp [Ideal.ofBits, Ideal.ieee]

/-- The pattern of `+0.0` denotes `0`. -/
theorem ofBits_zero : Ideal.ofBits .f32 0x00000000#32 = 0 := by
  simp [Ideal.ofBits, Ideal.ieee]

/-- The stabiliser `ε` (the float nearest 1e-13) denotes a real number. -/
theorem ofBits_eps : ∃ r : ℝ, Ideal.ofBits .f32 0x29E12E13#32 = (r : EReal) := by
  have h : Ideal.ofBits .f32 0x29E12E13#32 ≠ ⊤ ∧ Ideal.ofBits .f32 0x29E12E13#32 ≠ ⊥ := by
    simp [Ideal.ofBits, Ideal.ieee, -EReal.coe_mul]
  exact ⟨_, (EReal.coe_toReal h.1 h.2).symm⟩

/-! ## Extended reals that are real numbers -/

/-- `x` is (the image of) a real number. -/
def IsReal (x : EReal) : Prop := ∃ r : ℝ, x = (r : EReal)

theorem isReal_coe (r : ℝ) : IsReal (r : EReal) := ⟨r, rfl⟩
theorem isReal_zero : IsReal 0 := ⟨0, rfl⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩

section Sums
variable {ι : Type}

/-- A finite sum of reals, taken in the extended reals, is the real sum. -/
theorem coe_sum (S : Finset ι) (f : ι → ℝ) : (∑ k ∈ S, (f k : EReal)) = ((∑ k ∈ S, f k : ℝ) : EReal) := by
  classical
  refine Finset.induction_on S (by simp) ?_
  intro a S ha ih
  rw [Finset.sum_insert ha, Finset.sum_insert ha, ih, EReal.coe_add]

theorem isReal_sum (S : Finset ι) (f : ι → EReal) (hf : ∀ k, IsReal (f k)) : IsReal (∑ k ∈ S, f k) := by
  choose g hg using hf
  exact ⟨∑ k ∈ S, g k, by rw [← coe_sum]; exact Finset.sum_congr rfl fun k _ => hg k⟩

/-- The running maximum from `-∞` over a set of reals is `-∞` on the empty set and a real otherwise. -/
theorem fold_max_coe (f : ι → ℝ) (S : Finset ι) :
    (S.fold max (⊥ : EReal) (fun k => (f k : EReal)) = ⊥ ∧ S = ∅)
      ∨ ∃ r : ℝ, S.fold max (⊥ : EReal) (fun k => (f k : EReal)) = (r : EReal) := by
  classical
  refine Finset.induction_on S (Or.inl ⟨Finset.fold_empty, rfl⟩) ?_
  intro a S ha ih
  right
  rw [Finset.fold_insert ha]
  rcases ih with ⟨h, _⟩ | ⟨r, h⟩
  · exact ⟨f a, by rw [h, max_eq_left bot_le]⟩
  · exact ⟨max (f a) r, by rw [h]; exact (EReal.coe_strictMono.monotone.map_max).symm⟩

end Sums

/-! ## A quotient of two reals -/

/-- The quotient of two reals: by zero the infinity of the numerator's sign (`-∞` for `0 / 0`), else the real quotient. -/
theorem div_coe_coe (a b : ℝ) :
    Ideal.div (a : EReal) (b : EReal) = if b = 0 then (if 0 < a then ⊤ else ⊥) else ((a / b : ℝ) : EReal) := by
  unfold Ideal.div
  by_cases hb : b = 0
  · subst hb
    simp
  · rw [if_neg (by exact_mod_cast hb), if_neg hb, ← EReal.coe_inv, ← EReal.coe_mul, div_eq_mul_inv]

/-- Numerator and denominator divided by one positive real: the quotient is unchanged, at a vanishing denominator too. -/
theorem div_div_common (a A D eps : ℝ) (hD : 0 < D) :
    Ideal.div ((a / D : ℝ) : EReal) ((A / D + eps : ℝ) : EReal) = Ideal.div (a : EReal) ((A + eps * D : ℝ) : EReal) := by
  rw [div_coe_coe, div_coe_coe]
  have h1 : A / D + eps = (A + eps * D) / D := by field_simp
  by_cases hb : A + eps * D = 0
  · have hb' : A / D + eps = 0 := by rw [h1, hb, zero_div]
    rw [if_pos hb, if_pos hb']
    have hs : 0 < a / D ↔ 0 < a := div_pos_iff_of_pos_right hD
    simp only [hs]
  · have hb' : A / D + eps ≠ 0 := by rw [h1]; exact div_ne_zero hb hD.ne'
    rw [if_neg hb, if_neg hb']
    congr 1
    rw [h1]; field_simp

/-! ## One row -/

section Row
variable {ι : Type} [Fintype ι]

/-- The row's largest score: the running maximum from `-∞`. -/
def rowMax (s : ι → EReal) : EReal := (Finset.univ : Finset ι).fold max (Ideal.ofBits .f32 0xFF800000#32) s

/-- The shifted exponential of a score. -/
def ex (s : ι → EReal) (k : ι) : EReal := Ideal.exp (s k - rowMax s)

/-- The attention weight by ONE division: `e·w / (∑ e·w + ε · ∑ e)`. -/
def wOne (eps : EReal) (s w : ι → EReal) (k : ι) : EReal :=
  Ideal.div (ex s k * w k) ((∑ j, ex s j * w j) + eps * ∑ j, ex s j)

/-- The attention weight by TWO normalisations: the softmax `e / ∑ e`, masked, then divided by its own sum plus `ε`. -/
def wTwo (eps : EReal) (s w : ι → EReal) (k : ι) : EReal :=
  Ideal.div (Ideal.div (ex s k) (∑ j, ex s j) * w k) ((∑ j, Ideal.div (ex s j) (∑ i, ex s i) * w j) + eps)

theorem wTwo_eq_wOne_real [Nonempty ι] (eps : ℝ) (s w : ι → ℝ) (k : ι) :
    wTwo (eps : EReal) (fun j => (s j : EReal)) (fun j => (w j : EReal)) k
      = wOne (eps : EReal) (fun j => (s j : EReal)) (fun j => (w j : EReal)) k := by
  obtain ⟨M, hM⟩ : ∃ r : ℝ, rowMax (fun j => (s j : EReal)) = (r : EReal) := by
    unfold rowMax
    rw [ofBits_neg_inf]
    rcases fold_max_coe s Finset.univ with ⟨_, h⟩ | h
    · exact absurd h Finset.univ_nonempty.ne_empty
    · exact h
  have hex : ∀ j, ex (fun j => (s j : EReal)) j = ((Real.exp (s j - M) : ℝ) : EReal) := by
    intro j
    unfold ex
    rw [hM, ← EReal.coe_sub]
    rfl
  have hD : 0 < ∑ j, Real.exp (s j - M) := Finset.sum_pos (fun j _ => Real.exp_pos _) Finset.univ_nonempty
  have hL : ∀ j, Ideal.div ((Real.exp (s j - M) : ℝ) : EReal) ((∑ i, Real.exp (s i - M) : ℝ) : EReal) * ((w j : ℝ) : EReal)
      = (((Real.exp (s j - M) * w j) / (∑ i, Real.exp (s i - M)) : ℝ) : EReal) := by
    intro j
    rw [div_coe_coe, if_neg hD.ne', ← EReal.coe_mul]
    congr 1
    ring
  unfold wTwo wOne
  simp only [hex]
  rw [coe_sum Finset.univ (fun j => Real.exp (s j - M))]
  simp only [hL, ← EReal.coe_mul]
  rw [coe_sum, coe_sum, ← Finset.sum_div, ← EReal.coe_add, ← EReal.coe_add]
  exact div_div_common _ _ _ _ hD

/-- On real scores, real weights and a real `ε` the two weights agree. -/
theorem wTwo_eq_wOne [Nonempty ι] (eps : EReal) (s w : ι → EReal) (heps : IsReal eps) (hs : ∀ j, IsReal (s j))
    (hw : ∀ j, IsReal (w j)) (k : ι) : wTwo eps s w k = wOne eps s w k := by
  obtain ⟨e, rfl⟩ := heps
  choose sr hsr using hs
  choose wr hwr using hw
  obtain rfl : s = fun j => (sr j : EReal) := funext hsr
  obtain rfl : w = fun j => (wr j : EReal) := funext hwr
  exact wTwo_eq_wOne_real e sr wr k

end Row

/-! ## A whole attention row -/

section Attention
variable {ι κ : Type} [Fintype ι] [Fintype κ] [DecidableEq ι]

/-- The masked score of row `l` against row `j` of a matrix `X`: their inner product, zero on the diagonal, times
    the mask weight of `j`. -/
def score (X : ι → κ → EReal) (w : ι → EReal) (l j : ι) : EReal :=
  (if l = j then 0 else ∑ d, X l d * X j d) * w j

/-- Row `l` of the attention output, column `d`, with the one-division weights. -/
def attnOne (eps : EReal) (X : ι → κ → EReal) (w : ι → EReal) (l : ι) (d : κ) : EReal :=
  ∑ k, wOne eps (score X w l) w k * X k d

/-- The same with the two-normalisation weights. -/
def attnTwo (eps : EReal) (X : ι → κ → EReal) (w : ι → EReal) (l : ι) (d : κ) : EReal :=
  ∑ k, wTwo eps (score X w l) w k * X k d

theorem isReal_score (X : ι → κ → EReal) (w : ι → EReal) (hX : ∀ l d, IsReal (X l d)) (hw : ∀ j, IsReal (w j)) (l j : ι) :
    IsReal (score X w l j) := by
  unfold score
  refine IsReal.mul ?_ (hw j)
  split
  · exact isReal_zero
  · exact isReal_sum _ _ fun d => (hX l d).mul (hX j d)

/-- On a real matrix, real mask weights and a real `ε` the two outputs agree. -/
theorem attnTwo_eq_attnOne [Nonempty ι] (eps : EReal) (X : ι → κ → EReal) (w : ι → EReal) (heps : IsReal eps)
    (hX : ∀ l d, IsReal (X l d)) (hw : ∀ j, IsReal (w j)) (l : ι) (d : κ) : attnTwo eps X w l d = attnOne eps X w l d := by
  unfold attnTwo attnOne
  exact Finset.sum_congr rfl fun k _ => by rw [wTwo_eq_wOne eps _ w heps (isReal_score X w hX hw l) hw k]

end Attention

end Cert.Attn

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.KernelRow.lean ====
/-
  One grid point of the kernel, read at an index.

  The body loads the batch's `[1, 1024, 1024]` block `x` and its `[1, 1, 1024]` mask block, and stores ONE value: with
  `X l d = x (0, l, d)` and `W j` the mask entry `(0, 0, j)` read as a signed integer,

    score l j = (if l = j then 0 else ∑ d, X l d · X j d) · W j        (the Gram matrix, its diagonal zeroed, masked)
    out (0, l, d) = ∑ k, wOne ε (score l) W k · X k d                    (the one-division weights of Softmax.lean).

  Each non-pointwise operation of the body is first read at literal coordinates (the two matrix products as sums
  over the contracted coordinate, the row reductions as a sum and a running maximum over the row, the layout
  operations as a change of index); the payload at `(0, l, d)` is then these readings composed.
-/
import proofs.«147863_j82076825026825_2_alg».proof.Proof.Gen.KernelIdeal.Skeleton
import proofs.«147863_j82076825026825_2_alg».proof.Proof.Softmax
import proofs.«147863_j82076825026825_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.Attn Cert.LibColumn

/-! ## Layout operations of the body at literal coordinates -/

section Layout
variable {α : Type}

theorem block_to_matrix (x : S1x1024x1024.Idx → α) (l d : Fin 1024) :
    shapeCast S1024x1024 x shapeCasts_S1x1024x1024_S1024x1024 (ix2 l d) = x (ix3 (0 : Fin 1) l d) :=
  shapeCast_1ab_ab_apply x _ l d

theorem matrix_to_block (x : S1024x1024.Idx → α) (u : Fin 1) (l d : Fin 1024) :
    shapeCast S1x1024x1024 x shapeCasts_S1024x1024_S1x1024x1024 (ix3 u l d) = x (ix2 l d) :=
  shapeCast_ab_1ab_apply x _ u l d

theorem transposed (perm : List (Fin S1024x1024.rank)) (hperm : perm = [1, 0]) (x : S1024x1024.Idx → α)
    (h : S1024x1024.Transposes perm S1024x1024) (j i : Fin 1024) :
    transpose S1024x1024 perm x h (ix2 j i) = x (ix2 i j) := by
  subst hperm
  exact transpose_ix2_apply x h j i

theorem column_along_rows (x : S1024x1.Idx → α) (p c : Fin 1024) :
    broadcastTo S1024x1024 x broadcasts_S1024x1_S1024x1024 (ix2 p c) = x (ix2 p (0 : Fin 1)) :=
  broadcastTo_a1_ab_apply x _ p c

theorem row_down_columns (x : S1x1024.Idx → α) (p c : Fin 1024) :
    broadcastTo S1024x1024 x broadcasts_S1x1024_S1024x1024 (ix2 p c) = x (ix2 (0 : Fin 1) c) :=
  broadcastTo_1b_ab_apply x _ p c

theorem mask_row (x : S1x1x1024.Idx → α) (u : Fin 1) (c : Fin 1024) :
    shapeCast S1x1024 x shapeCasts_S1x1x1024_S1x1024 (ix2 u c) = x (ix3 (0 : Fin 1) (0 : Fin 1) c) :=
  shapeCast_11a_1a_apply x _ u c

theorem as_column (x : S1024.Idx → α) (i : Fin 1024) (u : Fin 1) :
    shapeCast S1024x1 x shapeCasts_S1024_S1024x1 (ix2 i u) = x (ix1 i) :=
  shapeCast_a_a1_apply x _ i u

end Layout

theorem row_number (dims : List (Fin S1024x1.rank)) (hd : dims = [0]) (h : S1024x1.Iotas .tc 32 dims) (l : Fin 1024) (u : Fin 1) :
    iota .tc S1024x1 32 dims h (ix2 l u) = BitVec.ofNat 32 l.val := by
  subst hd
  exact iota_single_apply .tc S1024x1 32 0 h (ix2 l u)

theorem column_number (dims : List (Fin S1x1024.rank)) (hd : dims = [1]) (h : S1x1024.Iotas .tc 32 dims) (u : Fin 1) (k : Fin 1024) :
    iota .tc S1x1024 32 dims h (ix2 u k) = BitVec.ofNat 32 k.val := by
  subst hd
  exact iota_single_apply .tc S1x1024 32 1 h (ix2 u k)

theorem cmpi_apply (a b : IVec S1024x1024 32) (i : S1024x1024.Idx) : cmpi .eq a b i = IntOp.cmpi .eq (a i) (b i) := rfl

theorem exp_apply (a : FVec Ideal S1024x1024 .f32) (i : S1024x1024.Idx) : exp a i = Ideal.exp (a i) := rfl

theorem sitofp_mask (a : IVec S1x1024 32) (i : S1x1024.Idx) :
    (sitofp .f32 a : FVec Ideal S1x1024 .f32) i = (((a i).toInt : ℝ) : EReal) := rfl

/-- On the diagonal the selected value is the first, off it the second. -/
theorem select_diag {β : Type} (l k : Fin 1024) (a b : β) :
    Scalar.select (IntOp.cmpi .eq (BitVec.ofNat 32 l.val) (BitVec.ofNat 32 k.val)) a b = if l = k then a else b := by
  rw [cmpi_eq_ofNat (by norm_num) l k]
  by_cases h : l = k
  · rw [if_pos h, if_pos h]; exact select_one a b
  · rw [if_neg h, if_neg h]; exact select_zero a b

/-! ## The reductions and the matrix products at literal coordinates -/

/-- A row's sum. -/
theorem row_sum (axes : List (Fin S1024x1024.rank)) (ha : axes = [1]) (A : FVec Ideal S1024x1024 .f32)
    (h : S1024x1024.Reduces axes S1024) (hφ : FKind.Formats .f32) (hacc : (0x00000000#32 : BitVec 32) = 0x00000000#32)
    (l : Fin 1024) :
    multiReduction .add axes S1024 A 0x00000000#32 h hφ hacc (ix1 l) = ∑ k : Fin 1024, A (ix2 l k) := by
  subst ha
  refine (Ideal.multiReduction_add_single A 0x00000000#32 h hφ hacc (ix1 l)).trans ?_
  refine Finset.sum_congr rfl fun k _ => ?_
  exact congrArg A (funext fun a => Fin.ext (by match a with | ⟨0, _⟩ => rfl | ⟨1, _⟩ => rfl))

/-- A row's running maximum from `-∞`. -/
theorem row_max (axes : List (Fin S1024x1024.rank)) (ha : axes = [1]) (A : FVec Ideal S1024x1024 .f32)
    (h : S1024x1024.Reduces axes S1024) (hφ : FKind.Formats .f32) (hacc : (0xFF800000#32 : BitVec 32) = 0xFF800000#32)
    (l : Fin 1024) :
    multiReduction .maximumf axes S1024 A 0xFF800000#32 h hφ hacc (ix1 l)
      = (Finset.univ : Finset (Fin 1024)).fold max (Ideal.ofBits .f32 0xFF800000#32) (fun k => A (ix2 l k)) := by
  subst ha
  refine (Ideal.multiReduction_maximumf_single A 0xFF800000#32 h hφ hacc (ix1 l)).trans ?_
  have e : (A ∘ h.lift (ix1 l) : Fin 1024 → EReal) = fun k => A (ix2 l k) :=
    funext fun k => congrArg A (funext fun a => Fin.ext (by match a with | ⟨0, _⟩ => rfl | ⟨1, _⟩ => rfl))
  exact congrArg (fun f => (Finset.univ : Finset (Fin 1024)).fold max (Ideal.ofBits .f32 0xFF800000#32) f) e

theorem lhs_row (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_contracted (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_contracted (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_column (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into a zero accumulator, at `(l, d)`: the sum over the contracted coordinate. -/
theorem matmul_ix2 {φ₁ φ₂ : FTy} (A : FVec Ideal S1024x1024 φ₁) (B : FVec Ideal S1024x1024 φ₂) (l d : Fin 1024) :
    matmul dot_S1024x1024_S1024x1024_S1024x1024_1_0_0_1_n_n none A B (constant S1024x1024 .f32 0x00000000#32) (ix2 l d)
      = ∑ k : Fin 1024, A (ix2 l k) * B (ix2 k d) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 l d) ((contrEquiv1 dot_S1024x1024_S1024x1024_S1024x1024_1_0_0_1_n_n 1024 rfl rfl).symm k) = ix2 l k := funext fun a => Fin.ext (by
    match a with
    | ⟨0, _⟩ => exact lhs_row _ _
    | ⟨1, _⟩ => exact (lhs_contracted _ _).trans hk)
  have er : dot_S1024x1024_S1024x1024_S1024x1024_1_0_0_1_n_n.rhsIdx (ix2 l d) ((contrEquiv1 dot_S1024x1024_S1024x1024_S1024x1024_1_0_0_1_n_n 1024 rfl rfl).symm k) = ix2 k d := funext fun a => Fin.ext (by
    match a with
    | ⟨0, _⟩ => exact (rhs_contracted _ _).trans hk
    | ⟨1, _⟩ => exact rhs_column _ _)
  rw [el, er]

/-! ## The payload at an index -/

/-- The mask entry `j` of the block, a signed integer read as a real. -/
def wt (v12 : S1x1x1024.Idx → BitVec 32) (j : Fin 1024) : EReal := (((v12 (ix3 (0 : Fin 1) (0 : Fin 1) j)).toInt : ℝ) : EReal)

/-- The block as a matrix: entry `(l, d)` of its one batch. -/
def mat (v0 : S1x1024x1024.Idx → EReal) (l d : Fin 1024) : EReal := v0 (ix3 (0 : Fin 1) l d)

set_option maxHeartbeats 1000000 in
/-- What the body stores, at `(0, l, d)`. -/
theorem pay_apply (v0 : Vec Ideal S1x1024x1024 .f32) (v12 : Vec Ideal S1x1x1024 .i32) (u : Fin 1) (l d : Fin 1024) :
    k0_pay1 (F := Ideal) v0 v12 (ix3 u l d)
      = attnOne (Ideal.ofBits .f32 0x29E12E13#32) (mat v0) (wt v12) l d := by
  unfold k0_pay1
  simp (disch := exact rfl) only [matrix_to_block, matmul_ix2, truncf_apply, divf_apply, mulf_apply, addf_apply, subf_apply, column_along_rows,
    row_down_columns, as_column, row_sum, row_max, broadcast_apply, exp_apply, sitofp_mask, mask_row, select_apply,
    cmpi_apply, row_number, column_number, select_diag, transposed, block_to_matrix, Ideal.ofBits_def, ofBits_zero]
  unfold attnOne wOne ex rowMax score wt mat
  rfl

end Cert.KernelIdeal.Row

end
-- ==== Proof.Spec.lean ====
/-
  The whole-array statement: for `x : [32, 1024, 1024]` and an integer mask `[32, 1024]`, entry `(b, l, d)` of the result is
  row `l`, column `d` of the masked self-attention of batch `b` — the rows of `x b` weighted by the normalised masked
  softmax of row `l`'s scores against every row (Softmax.lean) — in its two spellings, which agree when `x` is real.
-/
import proofs.«147863_j82076825026825_2_alg».proof.Proof.Softmax
import Idealize.ShloMosaic.Lib.ValueIdx

noncomputable section

namespace Cert.Attn

open Idealize.ShloMosaic Idealize.ShloMosaic.ValueIdx

/-- Batch `b` of the array as a matrix. -/
def batch (X : (⟨3, ![32, 1024, 1024]⟩ : Shape).Idx → EReal) (b : Fin 32) (l d : Fin 1024) : EReal := X (ix3 b l d)

/-- Batch `b`'s mask row: each entry a signed integer read as a real. -/
def maskOf (Mk : (⟨2, ![32, 1024]⟩ : Shape).Idx → BitVec 32) (b : Fin 32) (j : Fin 1024) : EReal :=
  (((Mk (ix2 b j)).toInt : ℝ) : EReal)

/-- The result array, with the one-division weights. -/
def outOne (X : (⟨3, ![32, 1024, 1024]⟩ : Shape).Idx → EReal) (Mk : (⟨2, ![32, 1024]⟩ : Shape).Idx → BitVec 32) :
    (⟨3, ![32, 1024, 1024]⟩ : Shape).Idx → EReal :=
  fun i => attnOne (Ideal.ofBits .f32 0x29E12E13#32) (batch X (i 0)) (maskOf Mk (i 0)) (i 1) (i 2)

/-- The result array, with the two-normalisation weights. -/
def outTwo (X : (⟨3, ![32, 1024, 1024]⟩ : Shape).Idx → EReal) (Mk : (⟨2, ![32, 1024]⟩ : Shape).Idx → BitVec 32) :
    (⟨3, ![32, 1024, 1024]⟩ : Shape).Idx → EReal :=
  fun i => attnTwo (Ideal.ofBits .f32 0x29E12E13#32) (batch X (i 0)) (maskOf Mk (i 0)) (i 1) (i 2)

theorem outOne_apply (X : (⟨3, ![32, 1024, 1024]⟩ : Shape).Idx → EReal) (Mk : (⟨2, ![32, 1024]⟩ : Shape).Idx → BitVec 32)
    (b : Fin 32) (l d : Fin 1024) :
    outOne X Mk (ix3 b l d) = attnOne (Ideal.ofBits .f32 0x29E12E13#32) (batch X b) (maskOf Mk b) l d := rfl

theorem outTwo_apply (X : (⟨3, ![32, 1024, 1024]⟩ : Shape).Idx → EReal) (Mk : (⟨2, ![32, 1024]⟩ : Shape).Idx → BitVec 32)
    (b : Fin 32) (l d : Fin 1024) :
    outTwo X Mk (ix3 b l d) = attnTwo (Ideal.ofBits .f32 0x29E12E13#32) (batch X b) (maskOf Mk b) l d := rfl

/-- When every entry of `x` is a real number the two spellings are one array. -/
theorem outTwo_eq_outOne (X : (⟨3, ![32, 1024, 1024]⟩ : Shape).Idx → EReal) (Mk : (⟨2, ![32, 1024]⟩ : Shape).Idx → BitVec 32)
    (hX : ∀ i, IsReal (X i)) : outTwo X Mk = outOne X Mk := by
  funext i
  obtain ⟨b, l, d, rfl⟩ : ∃ (b : Fin 32) (l d : Fin 1024), i = ix3 b l d := ⟨i 0, i 1, i 2, eq_ix3 i⟩
  rw [outTwo_apply, outOne_apply]
  exact attnTwo_eq_attnOne _ _ _ ofBits_eps (fun l d => hX _) (fun j => isReal_coe _) l d

end Cert.Attn

end
-- ==== Proof.KernelArray.lean ====
/-
  From grid points to the array.

  The grid has one point per batch: at point `t` the first window's block is batch `t` of `x`, the second's is row
  `(t, 0, ·)` of the mask viewed `[32, 1, 1024]` (the host's broadcast of the `[32, 1024]` argument), and the output's
  block is batch `t` of the result. So what point `t` writes back (KernelRow.lean's reading of the body) is batch
  `t` of `outOne x mask`; the 32 blocks cover the result array; and the array after the run is `outOne x mask`.
-/
import proofs.«147863_j82076825026825_2_alg».proof.Proof.Gen.KernelIdeal.Value
import proofs.«147863_j82076825026825_2_alg».proof.Proof.KernelRow
import proofs.«147863_j82076825026825_2_alg».proof.Proof.Spec
import Idealize.ShloMosaic.Lib.StableHlo.Run
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
  Idealize.ShloMosaic.ValueIdx Cert.Attn
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl

/-- The printed index maps, decided over the 32 points: every window's block index is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch a grid point works on. -/
def batchOf (t : Fin cfg0.N) : Fin 32 := ⟨t.val, by have h := t.isLt; have hN : cfg0.N = 32 := N_0; omega⟩

/-- The first window's block at `t` sits at batch `t` of `x`. -/
theorem emb_x (t : Fin cfg0.N) (u : Fin 1) (l d : Fin 1024) :
    ((cfg0.win 0).blk t).view.emb (ix3 u l d : S1x1024x1024.Idx) = (ix3 (batchOf t) l d : S32x1024x1024.Idx) := by
  obtain ⟨e0, e1, e2, -⟩ := idx_facts t
  funext a; apply Fin.ext
  match a with
  | ⟨0, _⟩ => show win0_0.index t (0 : Fin 3) * 1 + 1 * u.val = t.val; have := u.isLt; omega
  | ⟨1, _⟩ => show win0_0.index t (1 : Fin 3) * 1024 + 1 * l.val = l.val; omega
  | ⟨2, _⟩ => show win0_0.index t (2 : Fin 3) * 1024 + 1 * d.val = d.val; omega

/-- The second window's block at `t` sits at row `(t, 0, ·)` of the mask viewed `[32, 1, 1024]`. -/
theorem emb_mask (t : Fin cfg0.N) (u u' : Fin 1) (j : Fin 1024) :
    ((cfg0.win 1).blk t).view.emb (ix3 u u' j : S1x1x1024.Idx) = (ix3 (batchOf t) (0 : Fin 1) j : S32x1x1024.Idx) := by
  obtain ⟨-, -, -, e0, e1, e2, -⟩ := idx_facts t
  funext a; apply Fin.ext
  match a with
  | ⟨0, _⟩ => show win0_1.index t (0 : Fin 3) * 1 + 1 * u.val = t.val; have := u.isLt; omega
  | ⟨1, _⟩ => show win0_1.index t (1 : Fin 3) * 1 + 1 * u'.val = 0; have := u'.isLt; omega
  | ⟨2, _⟩ => show win0_1.index t (2 : Fin 3) * 1024 + 1 * j.val = j.val; omega

/-- The output window's block at `t` sits at batch `t` of the result. -/
theorem emb_out (t : Fin cfg0.N) (u : Fin 1) (l d : Fin 1024) :
    ((cfg0.win 2).blk t).view.emb (ix3 u l d : S1x1024x1024.Idx) = (ix3 (batchOf t) l d : S32x1024x1024.Idx) := by
  obtain ⟨-, -, -, -, -, -, e0, e1, e2⟩ := idx_facts t
  funext a; apply Fin.ext
  match a with
  | ⟨0, _⟩ => show win0_2.index t (0 : Fin 3) * 1 + 1 * u.val = t.val; have := u.isLt; omega
  | ⟨1, _⟩ => show win0_2.index t (1 : Fin 3) * 1024 + 1 * l.val = l.val; omega
  | ⟨2, _⟩ => show win0_2.index t (2 : Fin 3) * 1024 + 1 * d.val = d.val; omega

/-- The mask array the region finds: the host's broadcast of the `[32, 1024]` argument to `[32, 1, 1024]`. -/
theorem mask_array (c : Dev nD) :
    (V m c main_v0 : S32x1x1024.Idx → BitVec 32)
      = broadcastInDim S32x1x1024 ![0, 2] bcast_S32x1024_S32x1x1024_0_2 (m ((c : Thread nD τ).loc main_arg1)) := by
  dsimp only [Gen.V, Gen.hostOps0]
  after_results

/-- … read at `(b, 0, j)`: the argument at `(b, j)`. -/
theorem mask_array_apply (c : Dev nD) (b : Fin 32) (u : Fin 1) (j : Fin 1024) :
    (V m c main_v0 : S32x1x1024.Idx → BitVec 32) (ix3 b u j) = m ((c : Thread nD τ).loc main_arg1) (ix2 b j) := by
  rw [mask_array]
  exact broadcastInDim_apply _ bcast_S32x1024_S32x1x1024_0_2 _ (ix3 b u j) (ix2 b j) (fun a => match a with
    | ⟨0, _⟩ => by show b.val = if (32 : Nat) = 1 then 0 else b.val; rw [if_neg (by decide)]
    | ⟨1, _⟩ => by show j.val = if (1024 : Nat) = 1 then 0 else j.val; rw [if_neg (by decide)])

/-- The first window's block at `t`, as a matrix, is batch `t` of `x`. -/
theorem block_x (c : Dev nD) (t : Fin cfg0.N) :
    Row.mat (iblk m c 0 t) = batch (m ((c : Thread nD τ).loc main_arg0)) (batchOf t) := by
  funext l d
  show V m c main_arg0 (((cfg0.win 0).blk t).view.emb (ix3 (0 : Fin 1) l d : S1x1024x1024.Idx)) = _
  rw [emb_x, V_main_arg0]
  rfl

/-- The second window's block at `t`, as weights, is batch `t`'s mask row. -/
theorem block_mask (c : Dev nD) (t : Fin cfg0.N) :
    Row.wt (iblk m c 1 t) = maskOf (m ((c : Thread nD τ).loc main_arg1)) (batchOf t) := by
  funext j
  show (((V m c main_v0 (((cfg0.win 1).blk t).view.emb (ix3 (0 : Fin 1) (0 : Fin 1) j : S1x1x1024.Idx))).toInt : ℝ) : EReal) = _
  rw [emb_mask, mask_array_apply]
  rfl

/-- WHAT POINT `t` WRITES BACK is block `t` of `outOne x mask`. -/
theorem flushed_eq (c : Dev nD) (t : Fin cfg0.N) :
    (dats m 0 c).flushed 2 t = ((cfg0.win 2).blk t).view.read (Elt Ideal)
      (outOne (m ((c : Thread nD τ).loc main_arg0)) (m ((c : Thread nD τ).loc main_arg1))) := by
  rw [Value.flushed2]
  unfold out0_2
  rw [View.canon_unit_zero origin3]
  simp only [View.ld_unit_zero (S := S1x1024x1024) origin3, View.ld_unit_zero (S := S1x1x1024) origin3]
  refine funext fun (j : S1x1024x1024.Idx) => ?_
  obtain ⟨u, l, d, rfl⟩ : ∃ (u : Fin 1) (l d : Fin 1024), j = ix3 u l d := ⟨j 0, j 1, j 2, eq_ix3 j⟩
  show k0_pay1 (F := Ideal) (iblk m c 0 t) (iblk m c 1 t) (ix3 u l d)
    = outOne (m ((c : Thread nD τ).loc main_arg0)) (m ((c : Thread nD τ).loc main_arg1)) (((cfg0.win 2).blk t).view.emb (ix3 u l d : S1x1024x1024.Idx))
  refine (Row.pay_apply (iblk m c 0 t) (iblk m c 1 t) u l d).trans ?_
  rw [emb_out, outOne_apply, block_x, block_mask]

/-- An index of the array is in point `t`'s block iff each coordinate is in the block's range on its axis. -/
theorem mem_blk (t : Fin cfg0.N) (i : S32x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v1).slice (win0_2.rect t)).set ↔ _
  rw [View.set_slice_whole, Rect.mem_set_unit]
  exact Iff.rfl

/-- Every index of the result lies in the block of the point of its batch. -/
theorem cover (i : S32x1024x1024.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 1024 := (i 2).isLt
  have hN : cfg0.N = 32 := N_0
  have hN' : grid0.N = 32 := N_0
  refine ⟨⟨(i 0).val, by omega⟩, flush0_2 _, ?_⟩
  rw [mem_blk]
  obtain ⟨-, -, -, -, -, -, e0, e1, e2⟩ := idx_facts ⟨(i 0).val, by omega⟩
  have e0' : win0_2.index ⟨(i 0).val, by omega⟩ (0 : Fin 3) = (i 0).val := e0
  intro a
  match a with
  | ⟨0, _⟩ =>
    show win0_2.index ⟨(i 0).val, _⟩ (0 : Fin 3) * 1 ≤ (i 0).val ∧ (i 0).val < win0_2.index ⟨(i 0).val, _⟩ (0 : Fin 3) * 1 + 1
    rw [e0']; omega
  | ⟨1, _⟩ =>
    show win0_2.index ⟨(i 0).val, _⟩ (1 : Fin 3) * 1024 ≤ (i 1).val ∧ (i 1).val < win0_2.index ⟨(i 0).val, _⟩ (1 : Fin 3) * 1024 + 1024
    rw [e1]; omega
  | ⟨2, _⟩ =>
    show win0_2.index ⟨(i 0).val, _⟩ (2 : Fin 3) * 1024 ≤ (i 2).val ∧ (i 2).val < win0_2.index ⟨(i 0).val, _⟩ (2 : Fin 3) * 1024 + 1024
    rw [e2]; omega

/-- THE ARRAY after the run. -/
theorem final (c : Dev nD) :
    (dats m 0 c).arrAt 2 cfg0.N = outOne (m ((c : Thread nD τ).loc main_arg0)) (m ((c : Thread nD τ).loc main_arg1)) :=
  (dats m 0 c).arrAt_eq_of_cover 2 _ (fun t _ => flushed_eq m c t) cover

/-- The kernel's run: the result array is `outOne` of the arguments, which end unchanged. -/
theorem run : θ_run defs (onTc (τ := τ) (main (F := Ideal))) ⟨m, fun _ => 0, ρ⟩ fun r => ∀ c : Dev nD,
      r.2.mem ((c : Thread nD τ).loc main_v1) = outOne (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRow.lean ====
/-
  The reference, read at an index.

  With `X l d = x (b, l, d)` the batch's matrix and `W j` the mask entry `(b, j)` read as a signed integer, the
  reference's result at `(b, l, d)` is row `l`, column `d` of the attention output with the TWO-normalisation weights
  (Softmax.lean's `attnTwo`): the Gram matrix `X Xᵀ` times `1 - I` (which zeroes its diagonal), times the mask; the
  softmax of each row (shifted by the row's maximum, itself taken once more against `-∞`, which changes nothing);
  the mask again; the division by the row's sum plus `ε`; and the product with `X`.

  Each stage is read at explicit coordinates from the stage before it.
-/
import proofs.«147863_j82076825026825_2_alg».proof.Proof.Gen.ReferenceIdeal.Read
import proofs.«147863_j82076825026825_2_alg».proof.Proof.Softmax
import proofs.«147863_j82076825026825_2_alg».proof.Proof.LibColumn
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx
  Cert.Attn Cert.LibColumn

/-! ## The stages' index maps at explicit coordinates -/

section Indices
variable (b : Fin 32) (l k d : Fin 1024) (u : Fin 1)

theorem at_v9 : idx_main_v9 (ix3 u l k) = ix2 l k :=
  funext fun a => Fin.ext (by match a with | ⟨0, _⟩ => rfl | ⟨1, _⟩ => rfl)
theorem at_v10 : idx_main_v10 (ix3 b l k) = ix3 (0 : Fin 1) l k :=
  funext fun a => Fin.ext (by match a with | ⟨0, _⟩ => rfl | ⟨1, _⟩ => rfl | ⟨2, _⟩ => rfl)
theorem at_v12 : idx_main_v12 (ix3 b u k) = ix2 b k :=
  funext fun a => Fin.ext (by match a with | ⟨0, _⟩ => rfl | ⟨1, _⟩ => rfl)
theorem at_v14 : idx_main_v14 (ix3 b l k) = ix3 b (0 : Fin 1) k :=
  funext fun a => Fin.ext (by match a with | ⟨0, _⟩ => rfl | ⟨1, _⟩ => rfl | ⟨2, _⟩ => rfl)
theorem at_v19 : idx_main_v19 (ix3 b l u) = ix2 b l :=
  funext fun a => Fin.ext (by match a with | ⟨0, _⟩ => rfl | ⟨1, _⟩ => rfl)
theorem at_v20 : idx_main_v20 (ix3 b l k) = ix3 b l (0 : Fin 1) :=
  funext fun a => Fin.ext (by match a with | ⟨0, _⟩ => rfl | ⟨1, _⟩ => rfl | ⟨2, _⟩ => rfl)
theorem at_v23 : idx_main_v23 (ix2 b l) k = ix3 b l k :=
  funext fun a => Fin.ext (by match a with | ⟨0, _⟩ => rfl | ⟨1, _⟩ => rfl | ⟨2, _⟩ => rfl)
theorem at_v24 : idx_main_v24 (ix3 b l u) = ix2 b l :=
  funext fun a => Fin.ext (by match a with | ⟨0, _⟩ => rfl | ⟨1, _⟩ => rfl)
theorem at_v25 : idx_main_v25 (ix3 b l k) = ix3 b l (0 : Fin 1) :=
  funext fun a => Fin.ext (by match a with | ⟨0, _⟩ => rfl | ⟨1, _⟩ => rfl | ⟨2, _⟩ => rfl)
theorem at_v27 : idx_main_v27 (ix3 b l k) = ix3 b (0 : Fin 1) k :=
  funext fun a => Fin.ext (by match a with | ⟨0, _⟩ => rfl | ⟨1, _⟩ => rfl | ⟨2, _⟩ => rfl)
theorem at_v29 : idx_main_v29 (ix2 b l) k = ix3 b l k :=
  funext fun a => Fin.ext (by match a with | ⟨0, _⟩ => rfl | ⟨1, _⟩ => rfl | ⟨2, _⟩ => rfl)
theorem at_v30 : idx_main_v30 (ix3 b l u) = ix2 b l :=
  funext fun a => Fin.ext (by match a with | ⟨0, _⟩ => rfl | ⟨1, _⟩ => rfl)
theorem at_v33 : idx_main_v33 (ix3 b l k) = ix3 b l (0 : Fin 1) :=
  funext fun a => Fin.ext (by match a with | ⟨0, _⟩ => rfl | ⟨1, _⟩ => rfl | ⟨2, _⟩ => rfl)
theorem at_lhs_v0 : lidx_main_v0 (ix3 b l k) d = ix3 b l d :=
  funext fun a => Fin.ext (by match a with | ⟨0, _⟩ => rfl | ⟨1, _⟩ => rfl | ⟨2, _⟩ => rfl)
theorem at_rhs_v0 : ridx_main_v0 (ix3 b l k) d = ix3 b k d :=
  funext fun a => Fin.ext (by match a with | ⟨0, _⟩ => rfl | ⟨1, _⟩ => rfl | ⟨2, _⟩ => rfl)
theorem at_lhs_v35 : lidx_main_v35 (ix3 b l d) k = ix3 b l k :=
  funext fun a => Fin.ext (by match a with | ⟨0, _⟩ => rfl | ⟨1, _⟩ => rfl | ⟨2, _⟩ => rfl)
theorem at_rhs_v35 : ridx_main_v35 (ix3 b l d) k = ix3 b k d :=
  funext fun a => Fin.ext (by match a with | ⟨0, _⟩ => rfl | ⟨1, _⟩ => rfl | ⟨2, _⟩ => rfl)

end Indices

/-! ## The stages -/

variable (x0 : (⟨S32x1024x1024, .f32⟩ : BufTy).Contents (Elt Ideal)) (x1 : (⟨S32x1024, .i32⟩ : BufTy).Contents (Elt Ideal))

/-- Batch `b` of the array as a matrix. -/
def mat (b : Fin 32) (l d : Fin 1024) : EReal := x0 (ix3 b l d)

/-- Batch `b`'s mask entry `j`, a signed integer read as a real. -/
def wt (b : Fin 32) (j : Fin 1024) : EReal := (((x1 (ix2 b j)).toInt : ℝ) : EReal)

/-- `1 - I` at `(l, k)`: zero on the diagonal, one off it. -/
theorem off_diagonal (l k : Fin 1024) : val_main_v8 (F := Ideal) (ix2 l k) = if l = k then 0 else 1 := by
  rw [val_main_v8_apply, val_main_v7_apply, val_main_cst_apply, val_main_v6_apply, val_main_v5_apply, val_main_v4_apply,
    val_main_v1_apply, val_main_v2_apply, val_main_v3_apply, val_main_c_apply]
  show Ideal.ofBits .f32 0x3F800000#32
      - (((IntOp.cmpi .eq (IntOp.addi (BitVec.ofNat 32 l.val) 0#32) (BitVec.ofNat 32 k.val)).toNat : ℝ) : EReal) = _
  have h0 : IntOp.addi (BitVec.ofNat 32 l.val) 0#32 = BitVec.ofNat 32 l.val := by
    unfold IntOp.addi; exact BitVec.add_zero _
  rw [h0, cmpi_eq_ofNat (by norm_num) l k, ofBits_one]
  by_cases h : l = k
  · rw [if_pos h, if_pos h]
    show (1 : EReal) - ((1 : ℕ) : ℝ) = 0
    rw [Nat.cast_one, EReal.coe_one, ← EReal.coe_one, ← EReal.coe_sub, sub_self, EReal.coe_zero]
  · rw [if_neg h, if_neg h]
    show (1 : EReal) - ((0 : ℕ) : ℝ) = 1
    rw [Nat.cast_zero, EReal.coe_zero, sub_zero]

/-- The mask weight broadcast over the rows (first use). -/
theorem mask_v14 (b : Fin 32) (l k : Fin 1024) : val_main_v14 (F := Ideal) x1 (ix3 b l k) = wt x1 b k := by
  rw [val_main_v14_apply, val_main_v13_apply, val_main_v12_apply, at_v14, at_v12]
  rfl

/-- The mask weight broadcast over the rows (second use). -/
theorem mask_v27 (b : Fin 32) (l k : Fin 1024) : val_main_v27 (F := Ideal) x1 (ix3 b l k) = wt x1 b k := by
  rw [val_main_v27_apply, val_main_v13_apply, val_main_v12_apply, at_v27, at_v12]
  rfl

/-- The Gram matrix of the batch. -/
theorem gram (b : Fin 32) (l k : Fin 1024) :
    val_main_v0 (F := Ideal) x0 (ix3 b l k) = ∑ d : Fin 1024, mat x0 b l d * mat x0 b k d := by
  rw [val_main_v0_apply]
  refine Finset.sum_congr rfl fun d _ => ?_
  rw [at_lhs_v0, at_rhs_v0]
  rfl

/-- The masked score. -/
theorem masked_score (b : Fin 32) (l k : Fin 1024) :
    val_main_v15 (F := Ideal) x0 x1 (ix3 b l k) = score (mat x0 b) (wt x1 b) l k := by
  rw [val_main_v15_apply, val_main_v11_apply, gram, val_main_v10_apply, at_v10, val_main_v9_apply, at_v9, off_diagonal, mask_v14]
  unfold score
  show (∑ d : Fin 1024, mat x0 b l d * mat x0 b k d) * (if l = k then 0 else 1) * wt x1 b k = _
  by_cases h : l = k
  · rw [if_pos h, if_pos h, mul_zero]
  · rw [if_neg h, if_neg h, mul_one]

/-- The row's maximum: the reduce from `-∞`, and once more against `-∞`. -/
theorem row_max (b : Fin 32) (l : Fin 1024) :
    val_main_v18 (F := Ideal) x0 x1 (ix2 b l) = rowMax (score (mat x0 b) (wt x1 b) l) := by
  rw [val_main_v18_apply, val_main_v17_apply, val_main_cst_1_apply]
  have key : ∀ (y : S32x1024x1024.Idx → EReal) (hr : S32x1024x1024.Reduces [2] S32x1024),
      Host.reduce (FloatOps.maximumf (F := Ideal) (φ := .f32)) y (val_main_cst_0 (F := Ideal) : S_.Idx → EReal)
          reducesTo_S32x1024x1024_S32x1024_d2 h_S_ (ix2 b l)
        = (Finset.univ : Finset (Fin 1024)).fold max (Ideal.ofBits .f32 0xFF800000#32) (fun k => y (ix3 b l k)) := by
    intro y hr
    refine (Host.reduce_eq_fold_single (FloatOps.maximumf (F := Ideal) (φ := .f32)) y (val_main_cst_0 (F := Ideal) : S_.Idx → EReal)
      reducesTo_S32x1024x1024_S32x1024_d2 hr h_S_ (ix2 b l)).trans ?_
    have e : (y ∘ hr.lift (ix2 b l) : Fin 1024 → EReal) = fun k => y (ix3 b l k) :=
      funext fun k => congrArg y (funext fun a => Fin.ext (by match a with | ⟨0, _⟩ => rfl | ⟨1, _⟩ => rfl | ⟨2, _⟩ => rfl))
    exact congrArg (fun f => (Finset.univ : Finset (Fin 1024)).fold max (Ideal.ofBits .f32 0xFF800000#32) f) e
  have hfold : val_main_v16 (F := Ideal) x0 x1 (ix2 b l) = rowMax (score (mat x0 b) (wt x1 b) l) := by
    have hs : (fun k : Fin 1024 => val_main_v15 (F := Ideal) x0 x1 (ix3 b l k)) = score (mat x0 b) (wt x1 b) l :=
      funext fun k => masked_score x0 x1 b l k
    unfold val_main_v16 rowMax
    rw [← hs]
    exact key _ (by decide)
  rw [hfold]
  show max (Ideal.ofBits .f32 0xFF800000#32) _ = _
  rw [ofBits_neg_inf]
  exact max_eq_right bot_le

/-- The shifted exponentials. -/
theorem exps (b : Fin 32) (l k : Fin 1024) :
    val_main_v22 (F := Ideal) x0 x1 (ix3 b l k) = ex (score (mat x0 b) (wt x1 b) l) k := by
  rw [val_main_v22_apply, val_main_v21_apply, masked_score, val_main_v20_apply, at_v20, val_main_v19_apply, at_v19, row_max]
  rfl

/-- The softmax's denominator. -/
theorem exp_sum (b : Fin 32) (l : Fin 1024) :
    val_main_v23 (F := Ideal) x0 x1 (ix2 b l) = ∑ k : Fin 1024, ex (score (mat x0 b) (wt x1 b) l) k := by
  rw [val_main_v23_apply, val_main_cst_2_apply]
  show Ideal.ofBits .f32 0x00000000#32 + _ = _
  rw [ofBits_zero, zero_add]
  exact Finset.sum_congr rfl fun k _ => by rw [at_v23, exps]

/-- The masked softmax. -/
theorem masked_softmax (b : Fin 32) (l k : Fin 1024) :
    val_main_v28 (F := Ideal) x0 x1 (ix3 b l k)
      = Ideal.div (ex (score (mat x0 b) (wt x1 b) l) k) (∑ j : Fin 1024, ex (score (mat x0 b) (wt x1 b) l) j) * wt x1 b k := by
  rw [val_main_v28_apply, val_main_v26_apply, exps, val_main_v25_apply, at_v25, val_main_v24_apply, at_v24, exp_sum, mask_v27]
  rfl

/-- Its row sum. -/
theorem masked_softmax_sum (b : Fin 32) (l : Fin 1024) :
    val_main_v29 (F := Ideal) x0 x1 (ix2 b l)
      = ∑ j : Fin 1024, Ideal.div (ex (score (mat x0 b) (wt x1 b) l) j) (∑ i : Fin 1024, ex (score (mat x0 b) (wt x1 b) l) i) * wt x1 b j := by
  rw [val_main_v29_apply, val_main_cst_3_apply]
  show Ideal.ofBits .f32 0x00000000#32 + _ = _
  rw [ofBits_zero, zero_add]
  exact Finset.sum_congr rfl fun k _ => by rw [at_v29, masked_softmax]

/-- The attention weight, by two normalisations. -/
theorem weight (b : Fin 32) (l k : Fin 1024) :
    val_main_v34 (F := Ideal) x0 x1 (ix3 b l k)
      = wTwo (Ideal.ofBits .f32 0x29E12E13#32) (score (mat x0 b) (wt x1 b) l) (wt x1 b) k := by
  rw [val_main_v34_apply, masked_softmax, val_main_v33_apply, at_v33, val_main_v32_apply, val_main_v30_apply, at_v30,
    masked_softmax_sum, val_main_v31_apply, val_main_cst_4_apply]
  rfl

/-- The reference's result at `(b, l, d)`. -/
theorem result_apply (b : Fin 32) (l d : Fin 1024) :
    val_main_v35 (F := Ideal) x0 x1 (ix3 b l d)
      = attnTwo (Ideal.ofBits .f32 0x29E12E13#32) (mat x0 b) (wt x1 b) l d := by
  rw [val_main_v35_apply]
  unfold attnTwo
  exact Finset.sum_congr rfl fun k _ => by rw [at_lhs_v35, at_rhs_v35, weight]; rfl

end Cert.ReferenceIdeal.Row

end
-- ==== Proof.Bridge.lean ====
/-
  Two facts the comparison of the two programs rests on.

  * Under the precondition every entry of `x` is a real number: the precondition is the conjunction, over every index,
    of `|x i| < +∞`, and an extended real whose absolute value is below `+∞` is neither infinity.
  * The reference's result array is `outTwo x mask` (RefRow.lean, at every index).
-/
import proofs.«147863_j82076825026825_2_alg».proof.Pre_finite_inputs
import proofs.«147863_j82076825026825_2_alg».proof.Proof.Gen.Pre_finite_inputs
import proofs.«147863_j82076825026825_2_alg».proof.Proof.RefRow
import proofs.«147863_j82076825026825_2_alg».proof.Proof.Spec
import Idealize.ShloMosaic.Lib.ReduceAll
import Idealize.ShloMosaic.Lib.ValueIdx

noncomputable section

namespace Cert.Bridge

open Idealize.ShloMosaic Idealize.ShloMosaic.ValueIdx Cert.Attn

/-- The pattern of `+∞` denotes the top of the extended reals. -/
theorem ofBits_pos_inf : Ideal.ofBits .f32 0x7F800000#32 = ⊤ := by
  simp [Ideal.ofBits, Ideal.ieee]

instance : Subsingleton Cert.Pre_finite_inputs.S_.Idx := ⟨fun a b => funext fun d => d.elim0⟩

/-- An extended real whose absolute value is below `+∞` is a real number. -/
theorem isReal_of_abs_lt_top (y : EReal) (h : max y (-y) < ⊤) : IsReal y := by
  induction y using EReal.rec with
  | bot => simp at h
  | coe r => exact ⟨r, rfl⟩
  | top => simp at h

/-- Under the precondition every entry of `x` is a real number. -/
theorem real_of_pre (x : FVec Ideal Cert.Pre_finite_inputs.S32x1024x1024 .f32) (mk : IVec Cert.Pre_finite_inputs.S32x1024 32)
    (h : Cert.Pre_finite_inputs.fn (F := Ideal) x mk = fun _ => 1#1) (i : Cert.Pre_finite_inputs.S32x1024x1024.Idx) :
    IsReal (x i) := by
  have h0 := congrFun h ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_pos_inf] at hc
  refine isReal_of_abs_lt_top _ ?_
  by_contra hlt
  unfold Ideal.cmp at hc
  simp [hlt] at hc

open Cert.ReferenceIdeal Cert.ReferenceIdeal.Read in
/-- The reference's result array is `outTwo` of its arguments. -/
theorem reference_result (x0 : (⟨S32x1024x1024, .f32⟩ : BufTy).Contents (Elt Ideal)) (x1 : (⟨S32x1024, .i32⟩ : BufTy).Contents (Elt Ideal)) :
    val_main_v35 (F := Ideal) x0 x1 = outTwo x0 x1 := by
  funext i
  obtain ⟨b, l, d, rfl⟩ : ∃ (b : Fin 32) (l d : Fin 1024), i = ix3 b l d := ⟨i 0, i 1, i 2, eq_ix3 i⟩
  exact Cert.ReferenceIdeal.Row.result_apply x0 x1 b l d

end Cert.Bridge

end
-- ==== Proof.lean ====
/-
  The proof of `Cert.Claim`: a Pallas self-attention kernel with a masked, renormalised softmax — `x xᵀ` with its
  diagonal zeroed, masked; the shifted exponentials `e`; the weights `e·w / (∑ e·w + ε · ∑ e)` by ONE division; the
  product with `x` — against the jnp reference, which normalises TWICE: `a = softmax · w`, then `a / (∑ a + ε)`.

  At the ideal values (extended reals, exact operations, changes of float format the identity) both are the same array when
  `x` is finite: `∑ e` is then a positive real, and dividing the reference's numerator and denominator by it gives the
  kernel's quotient (Softmax.lean), also where the common denominator vanishes, a quotient by zero being decided by the sign
  of its numerator. The precondition supplies the finiteness (Bridge.lean).

  The three frames are the generated ones (the reference's is its generated run with the result dropped); the idealisation
  rewrote no operation, so `preserves` is `True`; `algebraic` puts the kernel's run (KernelArray.lean: the result array
  is `outOne x mask`) beside the reference's generated run (its result is `outTwo x mask`: RefRow.lean, Bridge.lean).
-/
import proofs.«147863_j82076825026825_2_alg».proof.Defs
import proofs.«147863_j82076825026825_2_alg».proof.Proof.Gen.Kernel
import proofs.«147863_j82076825026825_2_alg».proof.Proof.Gen.Kernel.Skeleton
import proofs.«147863_j82076825026825_2_alg».proof.Proof.Gen.Kernel.Launch
import proofs.«147863_j82076825026825_2_alg».proof.Proof.Gen.Kernel.Points
import proofs.«147863_j82076825026825_2_alg».proof.Proof.Gen.Kernel.Frame
import proofs.«147863_j82076825026825_2_alg».proof.Proof.Gen.KernelIdeal
import proofs.«147863_j82076825026825_2_alg».proof.Proof.Gen.KernelIdeal.Skeleton
import proofs.«147863_j82076825026825_2_alg».proof.Proof.Gen.KernelIdeal.Launch
import proofs.«147863_j82076825026825_2_alg».proof.Proof.Gen.KernelIdeal.Points
import proofs.«147863_j82076825026825_2_alg».proof.Proof.Gen.KernelIdeal.Frame
import proofs.«147863_j82076825026825_2_alg».proof.Proof.Gen.ReferenceIdeal
import proofs.«147863_j82076825026825_2_alg».proof.Proof.Gen.Pre_finite_inputs
import proofs.«147863_j82076825026825_2_alg».proof.Proof.Gen.KernelIdeal.Value
import proofs.«147863_j82076825026825_2_alg».proof.Proof.Gen.ReferenceIdeal.Run
import proofs.«147863_j82076825026825_2_alg».proof.Proof.Gen.ReferenceIdeal.Read
import proofs.«147863_j82076825026825_2_alg».proof.Proof.KernelArray
import proofs.«147863_j82076825026825_2_alg».proof.Proof.Bridge
import Idealize.ShloMosaic.Adequacy
import Idealize.ShloMosaic.Init

noncomputable section

namespace Cert.Proof

open Idealize.ShloMosaic Idealize.ShloMosaic.TcCoe Idealize.SL.Sem Cert.Attn

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on `x` and the mask, with `x` finite, both programs end with the result array at
    `outOne x mask`: the kernel by its run, the reference because its `outTwo x mask` is the same array on a real `x`. -/
theorem algebraic : Cert.algebraic_KernelIdeal_ReferenceIdeal := by
  intro m ρ m' ρ' hpre hagree
  refine ⟨fun c => outOne (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2, Cert.Bridge.reference_result]
  exact outTwo_eq_outOne _ _ fun i => Cert.Bridge.real_of_pre _ _ (hpre c) i

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
